-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1500 : Shape := ⟨2, ![1024, 1500]⟩
abbrev S1500 : Shape := ⟨1, ![1500]⟩
abbrev S2000x1500 : Shape := ⟨2, ![2000, 1500]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1500 : S_.BroadcastsInDim S1024x1500 (![] : Fin 0 → Fin S1024x1500.rank)
  reducesTo_S1024x1500_S_d0_1 : S1024x1500.ReducesTo [0, 1] S_
  bcast_S_S1500 : S_.BroadcastsInDim S1500 (![] : Fin 0 → Fin S1500.rank)
  reducesTo_S1500_S_d0 : S1500.ReducesTo [0] S_
  bcast_S_S2000x1500 : S_.BroadcastsInDim S2000x1500 (![] : Fin 0 → Fin S2000x1500.rank)
  reducesTo_S2000x1500_S_d0_1 : S2000x1500.ReducesTo [0, 1] S_

variable [Facts]

def fn_part1 {F : FTy → Type} [FloatOps F] (main_v13 : IVec S_ 1) (main_v16 : IVec S2000x1500 1) : IVec S_ 1 :=
  let main_c_5 : IVec S_ 1 := constantI S_ 1 1#1
  let main_v17 : IVec S_ 1 := (fun x v => Host.reduce IntOp.andi x v reducesTo_S2000x1500_S_d0_1 h_S_) main_v16 main_c_5
  let main_v18 : IVec S_ 1 := andi main_v13 main_v17
  main_v18

def fn {F : FTy → Type} [FloatOps F] (main_arg0 : FVec F S16384x1024 .f32) (main_arg1 : FVec F S1024x1500 .f32) (main_arg2 : FVec F S1500 .f32) (main_arg3 : FVec F S2000x1500 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x1500 .f32 := Host.absf main_arg1
  let main_cst_0 : FVec F S_ .f32 := constant S_ .f32 0x7F800000#32
  let main_v5 : FVec F S1024x1500 .f32 := broadcastInDim S1024x1500 ![] bcast_S_S1024x1500 main_cst_0
  let main_v6 : IVec S1024x1500 1 := cmpf .olt main_v4 main_v5
  let main_c_1 : IVec S_ 1 := constantI S_ 1 1#1
  let main_v7 : IVec S_ 1 := (fun x v => Host.reduce IntOp.andi x v reducesTo_S1024x1500_S_d0_1 h_S_) main_v6 main_c_1
  let main_v8 : IVec S_ 1 := andi main_v3 main_v7
  let main_v9 : FVec F S1500 .f32 := Host.absf main_arg2
  let main_cst_2 : FVec F S_ .f32 := constant S_ .f32 0x7F800000#32
  let main_v10 : FVec F S1500 .f32 := broadcastInDim S1500 ![] bcast_S_S1500 main_cst_2
  let main_v11 : IVec S1500 1 := cmpf .olt main_v9 main_v10
  let main_c_3 : IVec S_ 1 := constantI S_ 1 1#1
  let main_v12 : IVec S_ 1 := (fun x v => Host.reduce IntOp.andi x v reducesTo_S1500_S_d0 h_S_) main_v11 main_c_3
  let main_v13 : IVec S_ 1 := andi main_v8 main_v12
  let main_v14 : FVec F S2000x1500 .f32 := Host.absf main_arg3
  let main_cst_4 : FVec F S_ .f32 := constant S_ .f32 0x7F800000#32
  let main_v15 : FVec F S2000x1500 .f32 := broadcastInDim S2000x1500 ![] bcast_S_S2000x1500 main_cst_4
  let main_v16 : IVec S2000x1500 1 := cmpf .olt main_v14 main_v15
  fn_part1 (F := F) main_v13 main_v16
-- ==== Kernel.lean ====
abbrev S16384x1024 : Shape := ⟨2, ![16384, 1024]⟩
abbrev S1024x1500 : Shape := ⟨2, ![1024, 1500]⟩
abbrev S1500 : Shape := ⟨1, ![1500]⟩
abbrev S2000x1500 : Shape := ⟨2, ![2000, 1500]⟩
abbrev S1x1500 : Shape := ⟨2, ![1, 1500]⟩
abbrev S_ : Shape := ⟨0, ![]⟩
abbrev S2048x1500 : Shape := ⟨2, ![2048, 1500]⟩
abbrev S1500x2048 : Shape := ⟨2, ![1500, 2048]⟩
abbrev S16384x2048 : Shape := ⟨2, ![16384, 2048]⟩
abbrev S512x1024 : Shape := ⟨2, ![512, 1024]⟩
abbrev S512x2048 : Shape := ⟨2, ![512, 2048]⟩
abbrev S512x1500 : Shape := ⟨2, ![512, 1500]⟩
abbrev S16384x2000 : Shape := ⟨2, ![16384, 2000]⟩

abbrev nBuf : Space → Nat
  | .hbm => 13
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x1500, .f32⟩
  | .hbm, ⟨2, _⟩ => ⟨S1500, .f32⟩
  | .hbm, ⟨3, _⟩ => ⟨S2000x1500, .f32⟩
  | .hbm, ⟨4, _⟩ => ⟨S1024x1500, .bf16⟩
  | .hbm, ⟨5, _⟩ => ⟨S1x1500, .f32⟩
  | .hbm, ⟨6, _⟩ => ⟨S_, .i32⟩
  | .hbm, ⟨7, _⟩ => ⟨S_, .f32⟩
  | .hbm, ⟨8, _⟩ => ⟨S2048x1500, .f32⟩
  | .hbm, ⟨9, _⟩ => ⟨S1500x2048, .f32⟩
  | .hbm, ⟨10, _⟩ => ⟨S1500x2048, .bf16⟩
  | .hbm, ⟨11, _⟩ => ⟨S16384x2048, .f32⟩
  | .hbm, ⟨12, _⟩ => ⟨S16384x2000, .f32⟩
  | .local _ .vmem, ⟨0, _⟩ => ⟨S512x1024, .f32⟩
  | .local _ .vmem, ⟨1, _⟩ => ⟨S512x1024, .f32⟩
  | .local _ .vmem, ⟨2, _⟩ => ⟨S1024x1500, .bf16⟩
  | .local _ .vmem, ⟨3, _⟩ => ⟨S1x1500, .f32⟩
  | .local _ .vmem, ⟨4, _⟩ => ⟨S1500x2048, .bf16⟩
  | .local _ .vmem, ⟨5, _⟩ => ⟨S512x2048, .f32⟩
  | .local _ .vmem, ⟨6, _⟩ => ⟨S512x2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1500 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1500 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1500x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  shapeCasts_S1500_S1x1500 : S1500.ShapeCasts S1x1500
  pads_S2000x1500_S2048x1500_0480_000 : S2000x1500.Pads (![0, 0] : Fin 2 → Nat) ![48, 0] ![0, 0] S2048x1500
  h_S_ : 0 < S_.numel
  transposes_S2048x1500_S1500x2048_1_0 : S2048x1500.Transposes [1, 0] S1500x2048
  inb_S512x1024_S512x1024_0_0 : ∀ a, (![0, 0] : Fin 2 → Nat) a + S512x1024.size a ≤ S512x1024.size a
  h_S512x1024 : 0 < S512x1024.numel
  inb_S1024x1500_S1024x1500_0_0 : ∀ a, (![0, 0] : Fin 2 → Nat) a + S1024x1500.size a ≤ S1024x1500.size a
  h_S1024x1500 : 0 < S1024x1500.numel
  shapeCasts_S1024x1500_S1024x1500 : S1024x1500.ShapeCasts S1024x1500
  inb_S1x1500_S1x1500_0_0 : ∀ a, (![0, 0] : Fin 2 → Nat) a + S1x1500.size a ≤ S1x1500.size a
  h_S1x1500 : 0 < S1x1500.numel
  shapeCasts_S1x1500_S1x1500 : S1x1500.ShapeCasts S1x1500
  broadcasts_S1x1500_S512x1500 : S1x1500.Broadcasts S512x1500
  inb_S1500x2048_S1500x2048_0_0 : ∀ a, (![0, 0] : Fin 2 → Nat) a + S1500x2048.size a ≤ S1500x2048.size a
  h_S1500x2048 : 0 < S1500x2048.numel
  shapeCasts_S1500x2048_S1500x2048 : S1500x2048.ShapeCasts S1500x2048
  inb_S512x2048_S512x2048_0_0 : ∀ a, (![0, 0] : Fin 2 → Nat) a + S512x2048.size a ≤ S512x2048.size a
  h_S512x2048 : 0 < S512x2048.numel
  slices_S16384x2048_S16384x2000_0_0 : S16384x2048.Slices ![0, 0] S16384x2000
  dot_S512x1024_S1024x1500_S512x1500_1_0_0_1_n_n_wf : DotDims.WF S512x1024 S1024x1500 S512x1500 [1] [0] [0] [1] [] []
  dot_S512x1500_S1500x2048_S512x2048_1_0_0_1_n_n_wf : DotDims.WF S512x1500 S1500x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1500.size a ≤ S1024x1500.size a
  hwx0_1 : ∀ i : grid0.Coords, EltTy.bits .bf16 = 32 ∨ (Rect.block (s := S1024x1500) S1024x1500.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1500.size a ≤ S1x1500.size a
  hwx0_2 : ∀ i : grid0.Coords, EltTy.bits .f32 = 32 ∨ (Rect.block (s := S1x1500) S1x1500.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1500x2048.size a ≤ S1500x2048.size a
  hwx0_3 : ∀ i : grid0.Coords, EltTy.bits .bf16 = 32 ∨ (Rect.block (s := S1500x2048) S1500x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S16384x2048.size a
  hwx0_4 : ∀ i : grid0.Coords, EltTy.bits .f32 = 32 ∨ (Rect.block (s := S16384x2048) S512x2048.size (cc0_transform_4 i) (hinb0_4 i)).WholeWords (EltTy.packing .f32)

variable [Facts₀]

def dot_S512x1024_S1024x1500_S512x1500_1_0_0_1_n_n : DotDims S512x1024 S1024x1500 S512x1500 where
  lhsContracting := [1]
  rhsContracting := [0]
  lhsNonContracting := [0]
  rhsNonContracting := [1]
  lhsBatch := []
  rhsBatch := []
  wf := dot_S512x1024_S1024x1500_S512x1500_1_0_0_1_n_n_wf
def dot_S512x1500_S1500x2048_S512x2048_1_0_0_1_n_n : DotDims S512x1500 S1500x2048 S512x2048 where
  lhsContracting := [1]
  rhsContracting := [0]
  lhsNonContracting := [0]
  rhsNonContracting := [1]
  lhsBatch := []
  rhsBatch := []
  wf := dot_S512x1500_S1500x2048_S512x2048_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1500.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1500.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1500x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x1500 : Shape := ⟨2, ![1024, 1500]⟩
abbrev S1500 : Shape := ⟨1, ![1500]⟩
abbrev S2000x1500 : Shape := ⟨2, ![2000, 1500]⟩
abbrev S16384x1500 : Shape := ⟨2, ![16384, 1500]⟩
abbrev S1x1500 : Shape := ⟨2, ![1, 1500]⟩
abbrev S_ : Shape := ⟨0, ![]⟩
abbrev S1500x2000 : Shape := ⟨2, ![1500, 2000]⟩
abbrev S16384x2000 : Shape := ⟨2, ![16384, 2000]⟩

abbrev nBuf : Space → Nat
  | .hbm => 32
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1500, .f32⟩
  | .hbm, ⟨2, _⟩ => ⟨S1500, .f32⟩
  | .hbm, ⟨3, _⟩ => ⟨S2000x1500, .f32⟩
  | .hbm, ⟨4, _⟩ => ⟨S16384x1500, .f32⟩
  | .hbm, ⟨5, _⟩ => ⟨S1x1500, .f32⟩
  | .hbm, ⟨6, _⟩ => ⟨S16384x1500, .f32⟩
  | .hbm, ⟨7, _⟩ => ⟨S16384x1500, .f32⟩
  | .hbm, ⟨8, _⟩ => ⟨S16384x1500, .f32⟩
  | .hbm, ⟨9, _⟩ => ⟨S16384x1500, .f32⟩
  | .hbm, ⟨10, _⟩ => ⟨S_, .f32⟩
  | .hbm, ⟨11, _⟩ => ⟨S16384x1500, .f32⟩
  | .hbm, ⟨12, _⟩ => ⟨S16384x1500, .f32⟩
  | .hbm, ⟨13, _⟩ => ⟨S_, .f32⟩
  | .hbm, ⟨14, _⟩ => ⟨S16384x1500, .f32⟩
  | .hbm, ⟨15, _⟩ => ⟨S16384x1500, .f32⟩
  | .hbm, ⟨16, _⟩ => ⟨S_, .f32⟩
  | .hbm, ⟨17, _⟩ => ⟨S16384x1500, .f32⟩
  | .hbm, ⟨18, _⟩ => ⟨S16384x1500, .f32⟩
  | .hbm, ⟨19, _⟩ => ⟨S1500x2000, .f32⟩
  | .hbm, ⟨20, _⟩ => ⟨S16384x2000, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S16384x2000, .f32⟩
  | .hbm, ⟨25, _⟩ => ⟨S16384x2000, .f32⟩
  | .hbm, ⟨26, _⟩ => ⟨S_, .f32⟩
  | .hbm, ⟨27, _⟩ => ⟨S16384x2000, .f32⟩
  | .hbm, ⟨28, _⟩ => ⟨S16384x2000, .f32⟩
  | .hbm, ⟨29, _⟩ => ⟨S_, .f32⟩
  | .hbm, ⟨30, _⟩ => ⟨S16384x2000, .f32⟩
  | .hbm, ⟨31, _⟩ => ⟨S16384x2000, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩

abbrev nD : Nat := 1
abbrev τ : Topo := Topo.v7x

variable {F : FTy → Type} [FloatOps F]

class Facts₀ : Prop where
  bcast_S1500_S1x1500_1 : S1500.BroadcastsInDim S1x1500 (![1] : Fin 1 → Fin S1x1500.rank)
  bcast_S1x1500_S16384x1500_0_1 : S1x1500.BroadcastsInDim S16384x1500 (![0, 1] : Fin 2 → Fin S16384x1500.rank)
  bcast_S_S16384x1500 : S_.BroadcastsInDim S16384x1500 (![] : Fin 0 → Fin S16384x1500.rank)
  transposes_S2000x1500_S1500x2000_1_0 : S2000x1500.Transposes [1, 0] S1500x2000
  bcast_S_S16384x2000 : S_.BroadcastsInDim S16384x2000 (![] : Fin 0 → Fin S16384x2000.rank)
  dot_S16384x1024_S1024x1500_S16384x1500_1_0_0_1_n_n_wf : DotDims.WF S16384x1024 S1024x1500 S16384x1500 [1] [0] [0] [1] [] []
  dot_S16384x1500_S1500x2000_S16384x2000_1_0_0_1_n_n_wf : DotDims.WF S16384x1500 S1500x2000 S16384x2000 [1] [0] [0] [1] [] []

variable [Facts₀]

def dot_S16384x1024_S1024x1500_S16384x1500_1_0_0_1_n_n : DotDims S16384x1024 S1024x1500 S16384x1500 where
  lhsContracting := [1]
  rhsContracting := [0]
  lhsNonContracting := [0]
  rhsNonContracting := [1]
  lhsBatch := []
  rhsBatch := []
  wf := dot_S16384x1024_S1024x1500_S16384x1500_1_0_0_1_n_n_wf
def dot_S16384x1500_S1500x2000_S16384x2000_1_0_0_1_n_n : DotDims S16384x1500 S1500x2000 S16384x2000 where
  lhsContracting := [1]
  rhsContracting := [0]
  lhsNonContracting := [0]
  rhsNonContracting := [1]
  lhsBatch := []
  rhsBatch := []
  wf := dot_S16384x1500_S1500x2000_S16384x2000_1_0_0_1_n_n_wf

class Facts : Prop extends Facts₀ where

variable [Facts]
-- ==== Proof.LibPlainDot.lean ====
/-
  A plain matrix product at the exact extended reals: for dimension numbers that contract the left operand's
  second axis against the right operand's first (no batch axis), the contraction sum at the output entry (p, q)
  is the sum over k of left (p, k) times right (k, q). From that, two readings of "rows times columns plus a row
  vector": a matrix unit's product into a zero accumulator with the vector re-laid as one row and repeated down the
  rows, and a host contraction with the vector broadcast in two steps. Both are the function `affine`. Also: the
  logistic function is one over one plus the exponential of the negated argument, on every extended real.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibPlainDot

open Idealize.ShloMosaic Idealize.ShloMosaic.ValueIdx

/-- The output entry (p, q) of rows-times-columns plus a row vector: the sum over k of x (p, k) · w (k, q), plus b q. -/
def affine {M K N : ℕ} (x : FVec Ideal ⟨2, ![M, K]⟩ .f32) (w : FVec Ideal ⟨2, ![K, N]⟩ .f32) (b : FVec Ideal ⟨1, ![N]⟩ .f32) :
    FVec Ideal ⟨2, ![M, N]⟩ .f32 :=
  fun i => (∑ k : Fin K, x (ix2 (n0 := M) (i 0) k) * w (ix2 (n1 := N) k (i 1))) + b (ix1 (n := N) (i 1))

theorem affine_apply {M K N : ℕ} (x : FVec Ideal ⟨2, ![M, K]⟩ .f32) (w : FVec Ideal ⟨2, ![K, N]⟩ .f32) (b : FVec Ideal ⟨1, ![N]⟩ .f32)
    (p : Fin M) (q : Fin N) : affine x w b (ix2 p q) = (∑ k : Fin K, x (ix2 p k) * w (ix2 k q)) + b (ix1 q) := rfl

/-- A block of T rows of `affine`: when x holds rows r … r + T − 1 of X, and w and b are W and B, the block's entry at y
    is `affine X W B` at the array index i whose row is r plus y's row and whose column is y's. -/
theorem affine_rows {M K N T : ℕ} (X : FVec Ideal ⟨2, ![M, K]⟩ .f32) (W : FVec Ideal ⟨2, ![K, N]⟩ .f32) (B : FVec Ideal ⟨1, ![N]⟩ .f32)
    (x : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = X (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    affine x w b y = affine X W B i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [affine_apply, affine_apply, hb]
  refine congrArg (· + B (ix1 q')) (Finset.sum_congr rfl fun k _ => ?_)
  rw [hx p k (h0 ▸ p'.isLt), hw, ← hp']

/-- The contraction index of a plain product is its one coordinate, so the contraction sum is a sum over `Fin K`. -/
theorem plain_sum {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  simp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have c1 : D.lhsContracting = [1] := by subst hD; rfl
  have c2 : D.rhsContracting = [0] := by subst hD; rfl
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ =>
      subst hD
      unfold DotDims.lhsIdx
      split
      · rename_i hb; exact absurd hb List.not_mem_nil
      · split
        · rfl
        · rename_i hn; exact absurd (List.mem_singleton.mpr rfl) hn
    | ⟨1, _⟩ => exact (D.lhsIdx_val_of_single c1 _ _).trans hk)
  have er : D.rhsIdx (ix2 p q) ((contrEquiv1 D K hr hs).symm k) = ix2 k q := funext fun a => Fin.ext (by
    match a with
    | ⟨0, _⟩ => exact (D.rhsIdx_val_of_single c2 _ _).trans hk
    | ⟨1, _⟩ =>
      subst hD
      unfold DotDims.rhsIdx
      split
      · rename_i hb; exact absurd hb List.not_mem_nil
      · split
        · rfl
        · rename_i hn; exact absurd (List.mem_singleton.mpr rfl) hn)
  rw [el, er]

/-- A matrix unit's product of two operands narrowed to bf16 into a zero accumulator, plus a vector re-laid as one
    row and repeated down the rows: at (p, q) it is `affine`. Narrowing is the identity on exact values. -/
theorem matmul_bias_apply {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hb : FTy.bf16.bits < FTy.f32.bits)
    (hc : (⟨1, ![N]⟩ : Shape).ShapeCasts ⟨2, ![1, N]⟩) (hbc : (⟨2, ![1, N]⟩ : Shape).Broadcasts ⟨2, ![M, N]⟩)
    (p : Fin M) (q : Fin N) :
    addf (matmul d none (truncf .bf16 x hb) (truncf .bf16 w hb) (constant ⟨2, ![M, N]⟩ .f32 0x00000000#32))
        (broadcastTo ⟨2, ![M, N]⟩ (shapeCast ⟨2, ![1, N]⟩ b hc) hbc) (ix2 p q)
      = affine x w b (ix2 p q) := by
  rw [affine_apply, addf_apply, broadcastTo_1b_ab_apply, shapeCast_a_1a_apply]
  refine congrArg (· + b (ix1 q)) ?_
  refine (Ideal.matmul_constant_zero_apply d none _ _ (ix2 p q)).trans ?_
  exact plain_sum d h1 h2 h3 h4 h5 h6 x w p q

/-- A vector broadcast to one row reads, at (u, i), the vector at i. -/
theorem bcast_a_1a_apply {a : ℕ} (x : (⟨1, ![a]⟩ : Shape).Idx → EReal)
    (h : (⟨1, ![a]⟩ : Shape).BroadcastsInDim ⟨2, ![1, a]⟩ ![1]) (u : Fin 1) (i : Fin a) :
    broadcastInDim ⟨2, ![1, a]⟩ ![1] h x (ix2 u i) = x (ix1 i) :=
  broadcastInDim_apply _ h x _ _ (fun ax => match ax with
    | ⟨0, _⟩ => by
      show i.val = if a = 1 then 0 else i.val
      split
      · have := i.isLt; omega
      · rfl)

/-- One row broadcast down the rows reads, at (p, c), the row at c. -/
theorem bcast_1b_ab_apply {a b : ℕ} (v : (⟨2, ![1, b]⟩ : Shape).Idx → EReal)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ (ix2 (0 : Fin 1) c) (fun ax => match ax with
    | ⟨0, _⟩ => by
      show (0 : ℕ) = if (1 : ℕ) = 1 then 0 else p.val
      rw [if_pos rfl]
    | ⟨1, _⟩ => by
      show c.val = if b = 1 then 0 else c.val
      split
      · have := c.isLt; omega
      · rfl)

/-- A host contraction of the same kind plus the vector broadcast to one row and then down the rows: `affine`. -/
theorem dot_bias_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1]) :
    addf (Host.dotGeneral (F := Ideal) d none x w)
        (broadcastInDim ⟨2, ![M, N]⟩ ![0, 1] hbc (broadcastInDim ⟨2, ![1, N]⟩ ![1] hr b))
      = affine x w b := by
  funext j
  obtain ⟨p, q, rfl⟩ : ∃ (p : Fin M) (q : Fin N), j = ix2 p q := ⟨j 0, j 1, eq_ix2 j⟩
  rw [affine_apply, addf_apply, bcast_1b_ab_apply, bcast_a_1a_apply]
  refine congrArg (· + b (ix1 q)) ?_
  simp only [Host.dotGeneral]
  rw [Ideal.dotGeneral_apply]
  exact plain_sum d h1 h2 h3 h4 h5 h6 x w p q

/-- The float word of 1.0 denotes the extended real one. -/
theorem one_f32 : Ideal.ofBits .f32 0x3F800000#32 = 1 := IdealRules.sign_bit.ideal_onePat .f32

/-- The host's spelling of the logistic function — one over (one plus the exponential of the negation), the ones
    broadcast constants — is, entry by entry, the logistic function a vector unit applies. -/
theorem host_sigmoid_eq {s : Shape} (y : FVec Ideal s .f32) (h : (⟨0, ![]⟩ : Shape).BroadcastsInDim s ![]) :
    Host.divf (F := Ideal) (broadcastInDim s ![] h (constant (F := Ideal) ⟨0, ![]⟩ .f32 0x3F800000#32))
        (addf (broadcastInDim s ![] h (constant (F := Ideal) ⟨0, ![]⟩ .f32 0x3F800000#32)) (Host.exp (F := Ideal) (Host.negf (F := Ideal) y)))
      = logistic y := by
  funext i
  simp only [Host.divf, Host.exp, Host.negf, addf, logistic, broadcastInDim, constant, Ideal.hostDivf_def, Ideal.logistic_def,
    Ideal.ofBits_def, one_f32, Ideal.logistic, Ideal.addf_def, Ideal.hostUnary_exp_def, Ideal.hostNegf_def, Ideal.negf_def]

/-- One graph layer's update of the node features: the logistic function of (features plus aggregated neighbours) times
    the weights plus the bias. -/
def ginLayer {M K N : ℕ} (h n : FVec Ideal ⟨2, ![M, K]⟩ .f32) (w : FVec Ideal ⟨2, ![K, N]⟩ .f32) (b : FVec Ideal ⟨1, ![N]⟩ .f32) :
    FVec Ideal ⟨2, ![M, N]⟩ .f32 :=
  fun i => Ideal.logistic (affine (fun j => h j + n j) w b i)

/-- The vector unit's form: the two operands (each through an identity re-lay) added, narrowed, multiplied into a zero
    accumulator, the bias row added, the logistic function applied. -/
theorem gin_pay_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x n : FVec Ideal ⟨2, ![M, K]⟩ .f32) (w : FVec Ideal ⟨2, ![K, N]⟩ .f32) (b : FVec Ideal ⟨1, ![N]⟩ .f32)
    (hb : FTy.bf16.bits < FTy.f32.bits) (hs : (⟨2, ![M, K]⟩ : Shape).ShapeCasts ⟨2, ![M, K]⟩)
    (hc : (⟨1, ![N]⟩ : Shape).ShapeCasts ⟨2, ![1, N]⟩) (hbc : (⟨2, ![1, N]⟩ : Shape).Broadcasts ⟨2, ![M, N]⟩) :
    logistic (addf (matmul d none (truncf .bf16 (addf (shapeCast ⟨2, ![M, K]⟩ x hs) (shapeCast ⟨2, ![M, K]⟩ n hs)) hb) (truncf .bf16 w hb)
        (constant ⟨2, ![M, N]⟩ .f32 0x00000000#32)) (broadcastTo ⟨2, ![M, N]⟩ (shapeCast ⟨2, ![1, N]⟩ b hc) hbc))
      = ginLayer x n w b := by
  funext j
  obtain ⟨p, q, rfl⟩ : ∃ (p : Fin M) (q : Fin N), j = ix2 p q := ⟨j 0, j 1, eq_ix2 j⟩
  rw [shapeCast_self, shapeCast_self]
  show Ideal.logistic _ = Ideal.logistic _
  exact congrArg Ideal.logistic (matmul_bias_apply d h1 h2 h3 h4 h5 h6 (addf x n) w b hb hc hbc p q)

/-- A block of T rows of a layer's update, as `affine_rows`. -/
theorem ginLayer_rows {M K N T : ℕ} (H Nb : FVec Ideal ⟨2, ![M, K]⟩ .f32) (W : FVec Ideal ⟨2, ![K, N]⟩ .f32) (B : FVec Ideal ⟨1, ![N]⟩ .f32)
    (x n : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = H (ix2 ⟨r + p.val, hp⟩ k))
    (hn : ∀ (p : Fin T) (k : Fin K) (hp : r + p.val < M), n (ix2 p k) = Nb (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    ginLayer x n w b y = ginLayer H Nb W B i :=
  congrArg Ideal.logistic (affine_rows (fun j => H j + Nb j) W B (fun j => x j + n j) w b r
    (fun p k hp => by show x (ix2 p k) + n (ix2 p k) = _; rw [hx p k hp, hn p k hp]) hw hb y i hi0 hi1)

/-- The host's form: the contraction of the sum with the weights, the bias broadcast in two steps, and the logistic
    function spelt as one over one plus the exponential of the negation. -/
theorem host_gin_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (h n : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1])
    (hone : (⟨0, ![]⟩ : Shape).BroadcastsInDim ⟨2, ![M, N]⟩ ![]) :
    Host.divf (F := Ideal) (broadcastInDim ⟨2, ![M, N]⟩ ![] hone (constant (F := Ideal) ⟨0, ![]⟩ .f32 0x3F800000#32))
        (addf (broadcastInDim ⟨2, ![M, N]⟩ ![] hone (constant (F := Ideal) ⟨0, ![]⟩ .f32 0x3F800000#32))
          (Host.exp (F := Ideal) (Host.negf (F := Ideal) (addf (Host.dotGeneral (F := Ideal) d none (addf h n) w)
            (broadcastInDim ⟨2, ![M, N]⟩ ![0, 1] hbc (broadcastInDim ⟨2, ![1, N]⟩ ![1] hr b))))))
      = ginLayer h n w b := by
  rw [host_sigmoid_eq, dot_bias_eq d h1 h2 h3 h4 h5 h6 (addf h n) w b hr hbc]
  rfl

end Cert.LibPlainDot

end
-- ==== Proof.LibMatProd.lean ====
/-
  The product of two matrices over the extended reals, entry by entry: entry (p, q) of x times w is the sum over k of
  x (p, k) · w (k, q). Three readings of it. A host contraction of x's second axis with w's first axis is this product.
  A matrix unit's product of the two operands narrowed to bf16, accumulated into zeros, is this product, since
  narrowing changes nothing on exact values. And a band of consecutive rows of the product is the product of that band
  of rows of x with w, which is what one block of a row-tiled computation holds.
-/
import proofs.«154076_j15023795601760_2_alg».proof.Proof.LibPlainDot

noncomputable section

namespace Cert.LibMatProd

open Idealize.ShloMosaic Idealize.ShloMosaic.ValueIdx Cert.LibPlainDot

/-- Entry (p, q) of rows times columns: the sum over k of x (p, k) · w (k, q). -/
def matProd {M K N : ℕ} (x : FVec Ideal ⟨2, ![M, K]⟩ .f32) (w : FVec Ideal ⟨2, ![K, N]⟩ .f32) : FVec Ideal ⟨2, ![M, N]⟩ .f32 :=
  fun i => ∑ k : Fin K, x (ix2 (n0 := M) (i 0) k) * w (ix2 (n1 := N) k (i 1))

theorem matProd_apply {M K N : ℕ} (x : FVec Ideal ⟨2, ![M, K]⟩ .f32) (w : FVec Ideal ⟨2, ![K, N]⟩ .f32) (p : Fin M) (q : Fin N) :
    matProd x w (ix2 p q) = ∑ k : Fin K, x (ix2 p k) * w (ix2 k q) := rfl

/-- A host contraction of the left operand's second axis with the right operand's first axis is the matrix product. -/
theorem host_dot_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) :
    Host.dotGeneral (F := Ideal) d none x w = matProd x w := by
  funext j
  obtain ⟨p, q, rfl⟩ : ∃ (p : Fin M) (q : Fin N), j = ix2 p q := ⟨j 0, j 1, eq_ix2 j⟩
  rw [matProd_apply]
  simp only [Host.dotGeneral]
  rw [Ideal.dotGeneral_apply]
  exact plain_sum d h1 h2 h3 h4 h5 h6 x w p q

/-- A matrix unit's product of two operands narrowed to bf16, accumulated into zeros, is the matrix product of the
    operands themselves: on exact values narrowing is the identity and the zero accumulator adds nothing. -/
theorem matmul_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (hb : FTy.bf16.bits < FTy.f32.bits) :
    matmul d none (truncf .bf16 x hb) (truncf .bf16 w hb) (constant ⟨2, ![M, N]⟩ .f32 0x00000000#32) = matProd x w := by
  funext j
  obtain ⟨p, q, rfl⟩ : ∃ (p : Fin M) (q : Fin N), j = ix2 p q := ⟨j 0, j 1, eq_ix2 j⟩
  rw [matProd_apply]
  refine (Ideal.matmul_constant_zero_apply d none _ _ (ix2 p q)).trans ?_
  exact plain_sum d h1 h2 h3 h4 h5 h6 x w p q

/-- Rows r, …, r + T − 1 of a product: when x holds those rows of X and w is W, the entry of x times w at y is the entry
    of X times W at the index whose row is r plus y's row and whose column is y's. -/
theorem matProd_rows {M K N T : ℕ} (X : FVec Ideal ⟨2, ![M, K]⟩ .f32) (W : FVec Ideal ⟨2, ![K, N]⟩ .f32)
    (x : FVec Ideal ⟨2, ![T, K]⟩ .f32) (w : FVec Ideal ⟨2, ![K, N]⟩ .f32) (r : ℕ)
    (hx : ∀ (p : Fin T) (k : Fin K) (hp : r + p.val < M), x (ix2 p k) = X (ix2 ⟨r + p.val, hp⟩ k))
    (hw : ∀ z, w z = W z)
    (y : (⟨2, ![T, N]⟩ : Shape).Idx) (i : (⟨2, ![M, N]⟩ : Shape).Idx)
    (hi0 : (i 0).val = r + (y 0).val) (hi1 : (i 1).val = (y 1).val) :
    matProd x w y = matProd X W i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [matProd_apply, matProd_apply]
  refine Finset.sum_congr rfl fun k _ => ?_
  rw [hx p k (h0 ▸ p'.isLt), hw, ← hp']

end Cert.LibMatProd

end
-- ==== Proof.LibPowRoot.lean ====
/-
  Powers with the exponents 2 and 1/2 on the extended reals, where they meet a product and a square root. The power of
  two reals is the real power, so x to the 2 is x · x for every real x, and x to the 1/2 is the square root of x for every
  real x ≥ 0. Two sources of such reals: the logistic function, which takes a real value (in [0, 1]) at EVERY extended
  real, the infinities included; and a clamp between two nonnegative real bounds, which is a nonnegative real whatever
  is clamped. Also the float words of 2 and 1/2.
-/
import Idealize.ShloMosaic.PureOps.Ideal

noncomputable section

namespace Cert.LibPowRoot

open Idealize.ShloMosaic

/-- The float word of 2.0 denotes 2. -/
theorem two_f32 : Ideal.ofBits .f32 0x40000000#32 = ((2 : ℝ) : EReal) := by
  simp [Ideal.ofBits, Ideal.ieee, -EReal.coe_mul]; norm_num
/-- The float word of 0.5 denotes 1/2. -/
theorem half_f32 : Ideal.ofBits .f32 0x3F000000#32 = ((1 / 2 : ℝ) : EReal) := by
  simp [Ideal.ofBits, Ideal.ieee, -EReal.coe_mul]; norm_num

/-- The logistic function of any extended real is a real number. -/
theorem logistic_real (z : EReal) : ∃ a : ℝ, Ideal.logistic z = (a : EReal) := by
  induction z using EReal.rec with
  | bot => exact ⟨0, by rw [Ideal.logistic_bot]; rfl⟩
  | coe r => exact ⟨_, Ideal.logistic_coe r⟩
  | top => exact ⟨1, by rw [Ideal.logistic_top]; rfl⟩

/-- A real to the power 2 is its product with itself. -/
theorem pow_two_coe (a : ℝ) : Ideal.pow (a : EReal) (Ideal.ofBits .f32 0x40000000#32) = (a : EReal) * (a : EReal) := by
  rw [two_f32, Ideal.pow_coe_coe, ← EReal.coe_mul]
  congr 1
  show a ^ (2 : ℝ) = a * a
  rw [Real.rpow_two, sq]

/-- So a logistic value to the power 2 is its square, at every extended real. -/
theorem pow_two_logistic (z : EReal) :
    Ideal.pow (Ideal.logistic z) (Ideal.ofBits .f32 0x40000000#32) = Ideal.logistic z * Ideal.logistic z := by
  obtain ⟨a, ha⟩ := logistic_real z
  rw [ha, pow_two_coe]

/-- A nonnegative real to the power 1/2 is its square root. -/
theorem pow_half_coe (r : ℝ) (hr : 0 ≤ r) : Ideal.pow (r : EReal) (Ideal.ofBits .f32 0x3F000000#32) = Ideal.sqrt (r : EReal) := by
  rw [half_f32, Ideal.pow_coe_coe, Ideal.sqrt_coe, if_neg (not_lt.2 hr)]
  congr 1
  show r ^ (1 / 2 : ℝ) = Real.sqrt r
  rw [Real.sqrt_eq_rpow]

/-- A clamp between nonnegative real bounds is a nonnegative real, whatever is clamped. -/
theorem clamp_real (l h : ℝ) (hl : 0 ≤ l) (hh : 0 ≤ h) (s : EReal) :
    ∃ r : ℝ, 0 ≤ r ∧ min (h : EReal) (max (l : EReal) s) = (r : EReal) := by
  have cmin : ∀ a b : ℝ, min (a : EReal) (b : EReal) = ((min a b : ℝ) : EReal) :=
    fun a b => (EReal.coe_strictMono.monotone.map_min).symm
  have cmax : ∀ a b : ℝ, max (a : EReal) (b : EReal) = ((max a b : ℝ) : EReal) :=
    fun a b => (EReal.coe_strictMono.monotone.map_max).symm
  induction s using EReal.rec with
  | bot =>
    refine ⟨min h l, le_min hh hl, ?_⟩
    rw [max_eq_left bot_le, cmin]
  | coe x =>
    refine ⟨min h (max l x), le_min hh (le_trans hl (le_max_left _ _)), ?_⟩
    rw [cmax, cmin]
  | top =>
    refine ⟨h, hh, ?_⟩
    rw [max_eq_right le_top, min_eq_left le_top]

/-- So such a clamp to the power 1/2 is its square root. -/
theorem pow_half_clamp (l h : ℝ) (hl : 0 ≤ l) (hh : 0 ≤ h) (s : EReal) :
    Ideal.pow (min (h : EReal) (max (l : EReal) s)) (Ideal.ofBits .f32 0x3F000000#32)
      = Ideal.sqrt (min (h : EReal) (max (l : EReal) s)) := by
  obtain ⟨r, hr, e⟩ := clamp_real l h hl hh s
  rw [e, pow_half_coe r hr]

end Cert.LibPowRoot

end
-- ==== Proof.RootNorm.lean ====
/-
  The function both programs compute, on the extended reals. For rows x of a matrix X, weights W, a bias b and a mask R:
  the activation a (p, j) is the logistic function of (the sum over k of X (p, k) · W (k, j)) + b j; the score s (p, c)
  is the sum over j of a (p, j)² · R (j, c); the result is the square root of s clamped to [lo, hi], two positive
  constants below one. Stated over plain coordinate functions, so that a block of rows, a padded mask and a transposed
  mask are all instances. Also the two bounds as exact rationals: both are positive reals, so a clamp to [lo, hi] is a
  positive real whatever is clamped, and its power with exponent 1/2 is its square root.
-/
import proofs.«154076_j15023795601760_2_alg».proof.Proof.LibMatProd
import proofs.«154076_j15023795601760_2_alg».proof.Proof.LibPowRoot

noncomputable section

namespace Cert.RootNorm

open Idealize.ShloMosaic Idealize.ShloMosaic.ValueIdx

/-- The lower clamp bound, the float nearest 10⁻⁶. -/
def lo : EReal := Ideal.ofBits .f32 0x358637BD#32
/-- The upper clamp bound, the float nearest 1 − 10⁻⁶. -/
def hi : EReal := Ideal.ofBits .f32 0x3F7FFFEF#32

/-- The activation at row p and unit j: the logistic function of the row's product with column j of the weights, plus the bias. -/
def act {M K N : ℕ} (χ : Fin M → Fin K → EReal) (ω : Fin K → Fin N → EReal) (β : Fin N → EReal) (p : Fin M) (j : Fin N) : EReal :=
  Ideal.logistic ((∑ k : Fin K, χ p k * ω k j) + β j)

/-- The result at row p and class c: the clamped masked sum of squared activations, under a square root. -/
def root {M K N C : ℕ} (χ : Fin M → Fin K → EReal) (ω : Fin K → Fin N → EReal) (β : Fin N → EReal) (ρ : Fin N → Fin C → EReal)
    (p : Fin M) (c : Fin C) : EReal :=
  Ideal.sqrt (min hi (max lo (∑ j : Fin N, (act χ ω β p j * act χ ω β p j) * ρ j c)))

/-- The result depends on the row p only through that row of χ. -/
theorem root_row {M M' K N C : ℕ} (χ : Fin M → Fin K → EReal) (χ' : Fin M' → Fin K → EReal) (ω : Fin K → Fin N → EReal)
    (β : Fin N → EReal) (ρ : Fin N → Fin C → EReal) (p : Fin M) (p' : Fin M') (c : Fin C) (h : ∀ k, χ p k = χ' p' k) :
    root χ ω β ρ p c = root χ' ω β ρ p' c := by
  unfold root act
  simp only [h]

/-- The result at class c depends on the mask only through its column c. -/
theorem root_col {M K N C C' : ℕ} (χ : Fin M → Fin K → EReal) (ω : Fin K → Fin N → EReal)
    (β : Fin N → EReal) (ρ : Fin N → Fin C → EReal) (ρ' : Fin N → Fin C' → EReal) (p : Fin M) (c : Fin C) (c' : Fin C')
    (h : ∀ j, ρ j c = ρ' j c') : root χ ω β ρ p c = root χ ω β ρ' p c' := by
  unfold root
  simp only [h]

/-- The result as an array: X is [M, K], W is [K, N], B is [N], and the mask T is stored class by class, [C, N], so that
    the factor of unit j in class c is T (c, j). -/
def rootArr {M K N C : ℕ} (X : FVec Ideal ⟨2, ![M, K]⟩ .f32) (W : FVec Ideal ⟨2, ![K, N]⟩ .f32) (B : FVec Ideal ⟨1, ![N]⟩ .f32)
    (T : FVec Ideal ⟨2, ![C, N]⟩ .f32) : FVec Ideal ⟨2, ![M, C]⟩ .f32 :=
  fun i => root (fun p k => X (ix2 p k)) (fun k j => W (ix2 k j)) (fun j => B (ix1 j)) (fun j c => T (ix2 c j)) (i 0) (i 1)

/-! ## The two clamp bounds, and the root of the clamp -/

theorem lo_eq : lo = ((8796093 / 8796093022208 : ℝ) : EReal) := by
  unfold lo; simp [Ideal.ofBits, Ideal.ieee, -EReal.coe_mul]; norm_num
theorem hi_eq : hi = ((16777199 / 16777216 : ℝ) : EReal) := by
  unfold hi; simp [Ideal.ofBits, Ideal.ieee, -EReal.coe_mul]; norm_num

/-- Both bounds are positive reals, so the clamp's power with exponent 1/2 is its square root. -/
theorem pow_half_bounds (s : EReal) :
    Ideal.pow (min hi (max lo s)) (Ideal.ofBits .f32 0x3F000000#32) = Ideal.sqrt (min hi (max lo s)) := by
  rw [lo_eq, hi_eq]
  exact Cert.LibPowRoot.pow_half_clamp _ _ (by norm_num) (by norm_num) s

end Cert.RootNorm

end
-- ==== Proof.BlockRoot.lean ====
/-
  One block of the kernel: from a block x0 of 512 rows of the input, the whole weights x1, the bias as one row x2 and the
  whole padded, transposed mask x3, the body stores, at row p and column q of the block, the clamped root of the masked
  squared activations of that row — the first matrix product into zeros plus the bias row repeated down the rows is the
  affine map, narrowing to bf16 is the identity on exact values, and the second matrix product into zeros sums over the
  units the squared activation times the mask at (j, q).
-/
import proofs.«154076_j15023795601760_2_alg».proof.Proof.RootNorm
import proofs.«154076_j15023795601760_2_alg».proof.Proof.Gen.KernelIdeal.Skeleton

noncomputable section

namespace Cert.RootNorm.Block

open Idealize.ShloMosaic Idealize.ShloMosaic.ValueIdx Cert.LibPlainDot Cert.RootNorm
open Cert.KernelIdeal Cert.KernelIdeal.Gen

/-- The first product into zeros plus the bias row repeated down the rows, at (p, j): the row's product with column j
    of the weights, plus the bias at j. -/
theorem affine_entry (a : FVec Ideal S512x1024 .bf16) (b : FVec Ideal S1024x1500 .bf16) (r : FVec Ideal S1x1500 .f32)
    (p : Fin 512) (j : Fin 1500) :
    addf (matmul dot_S512x1024_S1024x1500_S512x1500_1_0_0_1_n_n none a b (constant S512x1500 .f32 0x00000000#32))
        (broadcastTo S512x1500 r broadcasts_S1x1500_S512x1500) (ix2 p j)
      = (∑ k : Fin 1024, a (ix2 p k) * b (ix2 k j)) + r (ix2 (0 : Fin 1) j) := by
  rw [addf_apply, broadcastTo_1b_ab_apply]
  refine congrArg (· + r (ix2 (0 : Fin 1) j)) ?_
  exact (Ideal.matmul_constant_zero_apply (φ₁ := .bf16) (φ₂ := .bf16) dot_S512x1024_S1024x1500_S512x1500_1_0_0_1_n_n none a b (ix2 p j)).trans
    (plain_sum dot_S512x1024_S1024x1500_S512x1500_1_0_0_1_n_n rfl rfl rfl rfl rfl rfl a b p j)

/-- The body's stored value at (p, q) of the block. -/
theorem pay_apply (x0 : Vec Ideal S512x1024 .f32) (x1 : Vec Ideal S1024x1500 .bf16) (x2 : Vec Ideal S1x1500 .f32)
    (x3 : Vec Ideal S1500x2048 .bf16) (p : Fin 512) (q : Fin 2048) :
    k0_pay1 (F := Ideal) x0 x1 x2 x3 (ix2 p q)
      = root (fun p k => x0 (ix2 p k)) (fun k j => x1 (ix2 k j)) (fun j => x2 (ix2 (0 : Fin 1) j)) (fun j c => x3 (ix2 j c)) p q := by
  unfold k0_pay1
  rw [shapeCast_self, shapeCast_self, shapeCast_self]
  unfold root
  show Ideal.sqrt (min hi (max lo _)) = Ideal.sqrt (min hi (max lo _))
  refine congrArg Ideal.sqrt (congrArg (min hi) (congrArg (max lo) ?_))
  refine (Ideal.matmul_constant_zero_apply (φ₁ := .bf16) (φ₂ := .bf16) dot_S512x1500_S1500x2048_S512x2048_1_0_0_1_n_n none _ _ (ix2 p q)).trans ?_
  refine (plain_sum dot_S512x1500_S1500x2048_S512x2048_1_0_0_1_n_n rfl rfl rfl rfl rfl rfl _ _ p q).trans ?_
  refine Finset.sum_congr rfl fun j _ => ?_
  refine congrArg (· * x3 (ix2 j q)) ?_
  show Ideal.logistic _ * Ideal.logistic _ = _
  unfold act
  exact congrArg (fun z => Ideal.logistic z * Ideal.logistic z) (affine_entry _ x1 x2 p j)

/-- The same at any index y of the block. -/
theorem pay_idx (x0 : Vec Ideal S512x1024 .f32) (x1 : Vec Ideal S1024x1500 .bf16) (x2 : Vec Ideal S1x1500 .f32)
    (x3 : Vec Ideal S1500x2048 .bf16) (y : S512x2048.Idx) :
    k0_pay1 (F := Ideal) x0 x1 x2 x3 y
      = root (fun p k => x0 (ix2 p k)) (fun k j => x1 (ix2 k j)) (fun j => x2 (ix2 (0 : Fin 1) j)) (fun j c => x3 (ix2 j c)) (y 0) (y 1) :=
  (congrArg (k0_pay1 (F := Ideal) x0 x1 x2 x3) (eq_ix2 y)).trans (pay_apply x0 x1 x2 x3 (y 0) (y 1))

end Cert.RootNorm.Block

end
-- ==== Proof.PaddedArray.lean ====
/-
  The region's output array, all 16384 rows and 2048 padded columns: entry (r, q) is the clamped root of the masked squared
  activations of row r of the input against column q of the prepared mask. Grid point t handles rows 512 t, …, 512 t + 511:
  its input block is those rows of the input, the other three operands are whole, and what it writes back is those rows
  of the array. The 32 points' blocks cover every row (row r belongs to point r / 512), so the array after the run is
  this function everywhere.
-/
import proofs.«154076_j15023795601760_2_alg».proof.Proof.BlockRoot
import proofs.«154076_j15023795601760_2_alg».proof.Proof.Gen.KernelIdeal.Frame
import Idealize.ShloMosaic.Lib.Pipeline.Value

set_option maxRecDepth 16384

noncomputable section

namespace Cert.RootNorm.Padded

open Idealize.ShloMosaic Idealize.ShloMosaic.TcCoe Idealize.ShloMosaic.ValueIdx Idealize.SL.Sem
open Idealize.ShloMosaic.Pipeline (Dat)
open Cert.RootNorm Cert.RootNorm.Block
open Cert.KernelIdeal Cert.KernelIdeal.Gen

variable (m : (ℓ : Loc nD τ sig) → Buf (Elt Ideal) ℓ)

/-- The region's output array as a function of the four arrays the region finds. -/
def padded (c : Dev nD) : S16384x2048.Idx → EReal := fun i =>
  root (fun p k => (V m c main_arg0 : S16384x1024.Idx → EReal) (ix2 p k))
    (fun k j => (V m c main_v0 : S1024x1500.Idx → EReal) (ix2 k j))
    (fun j => (V m c main_v1 : S1x1500.Idx → EReal) (ix2 (0 : Fin 1) j))
    (fun j q => (V m c main_v4 : S1500x2048.Idx → EReal) (ix2 j q)) (i 0) (i 1)

theorem zero_offsets : (![0, 0] : Fin 2 → Nat) = fun _ => 0 := funext fun a => by fin_cases a <;> rfl

/-- The printed index maps over the grid: the input's and the output's block row is the point's number, every other
    block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point t writes back is block t of `padded`. -/
theorem flushed_eq (c : Dev nD) (t : Fin cfg0.N) :
    (dats m 0 c).flushed 4 t = ((cfg0.win 4).blk t).view.read (Elt Ideal) (padded m c) := by
  show (cfg0.win 4).cut (grid0.coords t) ((dats m 0 c).after 4 t) = _
  rw [after0_4]
  unfold out0_4
  rw [View.canon_unit_zero zero_offsets]
  simp only [View.ld_unit_zero (S := S512x1024) zero_offsets, View.ld_unit_zero (S := S1024x1500) zero_offsets,
    View.ld_unit_zero (S := S1x1500) zero_offsets, View.ld_unit_zero (S := S1500x2048) zero_offsets]
  obtain ⟨e00, e01, e10, e11, e20, e21, e30, e31, e40, e41⟩ := idx_facts t
  have ht : t.val < 32 := Nat.lt_of_lt_of_eq t.isLt N_0
  funext y
  have hy0 : (y 0).val < 512 := (y 0).isLt
  have hy1 : (y 1).val < 2048 := (y 1).isLt
  show k0_pay1 (iblk m c 0 t) (iblk m c 1 t) (iblk m c 2 t) (iblk m c 3 t) y = padded m c (((cfg0.win 4).blk t).view.emb y)
  refine (pay_idx _ _ _ _ y).trans ?_
  -- the three whole operands' blocks are the arrays themselves
  have w1 : (fun (k : Fin 1024) (j : Fin 1500) => iblk m c 1 t (ix2 k j))
      = fun k j => (V m c main_v0 : S1024x1500.Idx → EReal) (ix2 k j) := by
    funext k j
    show V m c main_v0 (((cfg0.win 1).blk t).view.emb (ix2 k j)) = V m c main_v0 (ix2 k j)
    refine congrArg (V m c main_v0) (funext fun a => Fin.ext ?_)
    match a with
    | ⟨0, _⟩ => show win0_1.index t (0 : Fin 2) * 1024 + 1 * k.val = k.val; omega
    | ⟨1, _⟩ => show win0_1.index t (1 : Fin 2) * 1500 + 1 * j.val = j.val; omega
  have w2 : (fun (j : Fin 1500) => iblk m c 2 t (ix2 (0 : Fin 1) j))
      = fun j => (V m c main_v1 : S1x1500.Idx → EReal) (ix2 (0 : Fin 1) j) := by
    funext j
    show V m c main_v1 (((cfg0.win 2).blk t).view.emb (ix2 (0 : Fin 1) j)) = V m c main_v1 (ix2 (0 : Fin 1) j)
    refine congrArg (V m c main_v1) (funext fun a => Fin.ext ?_)
    match a with
    | ⟨0, _⟩ => show win0_2.index t (0 : Fin 2) * 1 + 1 * 0 = 0; omega
    | ⟨1, _⟩ => show win0_2.index t (1 : Fin 2) * 1500 + 1 * j.val = j.val; omega
  have w3 : (fun (j : Fin 1500) (q : Fin 2048) => iblk m c 3 t (ix2 j q))
      = fun j q => (V m c main_v4 : S1500x2048.Idx → EReal) (ix2 j q) := by
    funext j q
    show V m c main_v4 (((cfg0.win 3).blk t).view.emb (ix2 j q)) = V m c main_v4 (ix2 j q)
    refine congrArg (V m c main_v4) (funext fun a => Fin.ext ?_)
    match a with
    | ⟨0, _⟩ => show win0_3.index t (0 : Fin 2) * 1500 + 1 * j.val = j.val; omega
    | ⟨1, _⟩ => show win0_3.index t (1 : Fin 2) * 2048 + 1 * q.val = q.val; omega
  rw [w1, w2, w3]
  -- the output index under the block, and the input block's rows
  have hemb : ((cfg0.win 4).blk t).view.emb y = ix2 (⟨t.val * 512 + (y 0).val, by omega⟩ : Fin 16384) (⟨(y 1).val, hy1⟩ : Fin 2048) := by
    funext a; apply Fin.ext
    match a with
    | ⟨0, _⟩ => show win0_4.index t (0 : Fin 2) * 512 + 1 * (y 0).val = t.val * 512 + (y 0).val; omega
    | ⟨1, _⟩ => show win0_4.index t (1 : Fin 2) * 2048 + 1 * (y 1).val = (y 1).val; omega
  rw [hemb]
  unfold padded
  refine root_row _ _ _ _ _ (y 0) (⟨t.val * 512 + (y 0).val, by omega⟩ : Fin 16384) (y 1) fun k => ?_
  show V m c main_arg0 (((cfg0.win 0).blk t).view.emb (ix2 (y 0) k)) = V m c main_arg0 (ix2 (⟨t.val * 512 + (y 0).val, by omega⟩ : Fin 16384) k)
  refine congrArg (V m c main_arg0) (funext fun a => Fin.ext ?_)
  match a with
  | ⟨0, _⟩ => show win0_0.index t (0 : Fin 2) * 512 + 1 * (y 0).val = t.val * 512 + (y 0).val; omega
  | ⟨1, _⟩ => show win0_0.index t (1 : Fin 2) * 1024 + 1 * k.val = k.val; omega

/-- An index of the array is in point t's block iff each coordinate is in the block's range on its axis. -/
theorem mem_blk (t : Fin cfg0.N) (i : S16384x2048.Idx) :
    i ∈ ((cfg0.win 4).blk t).view.set ↔ ∀ a : Fin 2, win0_4.index t a * S512x2048.size a ≤ (i a).val
      ∧ (i a).val < win0_4.index t a * S512x2048.size a + S512x2048.size a := by
  show i ∈ ((View.whole main_v5).slice (win0_4.rect t)).set ↔ _
  rw [View.set_slice_whole, Rect.mem_set_unit]
  exact Iff.rfl

/-- Every index of the array is in the block of the point numbered by its row divided by 512. -/
theorem cover (i : S16384x2048.Idx) :
    ∃ t : Fin cfg0.N, (cfg0.win 4).flush t = true ∧ i ∈ ((cfg0.win 4).blk t).view.set := by
  have hi0 : (i 0).val < 16384 := (i 0).isLt
  have hi1 : (i 1).val < 2048 := (i 1).isLt
  have hN : cfg0.N = 32 := N_0
  let t : Fin cfg0.N := ⟨(i 0).val / 512, by rw [hN]; omega⟩
  have htv : t.val = (i 0).val / 512 := rfl
  obtain ⟨-, -, -, -, -, -, -, -, e40, e41⟩ := idx_facts t
  refine ⟨t, flush0_4 t, ?_⟩
  rw [mem_blk]
  intro a
  match a with
  | ⟨0, _⟩ =>
    show win0_4.index t (0 : Fin 2) * 512 ≤ (i 0).val ∧ (i 0).val < win0_4.index t (0 : Fin 2) * 512 + 512
    omega
  | ⟨1, _⟩ =>
    show win0_4.index t (1 : Fin 2) * 2048 ≤ (i 1).val ∧ (i 1).val < win0_4.index t (1 : Fin 2) * 2048 + 2048
    omega

/-- The region's output array after the run. -/
theorem final (c : Dev nD) : (dats m 0 c).arrAt 4 cfg0.N = padded m c :=
  (dats m 0 c).arrAt_eq_of_cover 4 (padded m c) (fun t _ => flushed_eq m c t) cover

end Cert.RootNorm.Padded

end
-- ==== Proof.LibPadBelow.lean ====
/-
  Rows appended below a matrix. A pad with no low padding and no interior padding, whatever it appends above the high end
  of the first axis, reads the operand at every index whose row lies inside the operand: the padded index is then the
  operand's own index, and the padding value is never consulted.
-/
import Idealize.ShloMosaic.Lib.ValueIdx

noncomputable section

namespace Cert.LibPadBelow

open Idealize.ShloMosaic Idealize.ShloMosaic.ValueIdx

/-- A matrix [a, b] padded to [a', b] with zero low offsets and no interior padding reads, at (p, q) with p below a, the
    operand at (p, q); `hi` (the rows appended) and the padding value `v` play no part. -/
theorem pad_below_apply {α : Type} {a a' b : ℕ} (x : (⟨2, ![a, b]⟩ : Shape).Idx → α) {u : Shape} (v : u.Idx → α)
    (hi : Fin 2 → ℕ) (h : (⟨2, ![a, b]⟩ : Shape).Pads ![0, 0] hi ![0, 0] ⟨2, ![a', b]⟩) (hu : 0 < u.numel)
    (p : Fin a') (q : Fin b) (hp : p.val < a) :
    pad ⟨2, ![a', b]⟩ ![0, 0] hi ![0, 0] x v h hu (ix2 p q) = x (ix2 ⟨p.val, hp⟩ q) := by
  unfold pad
  have hin : ∀ d : Fin 2, (![0, 0] : Fin 2 → ℕ) d ≤ ((ix2 p q) (d.cast h.1)).val
      ∧ (((ix2 p q) (d.cast h.1)).val - (![0, 0] : Fin 2 → ℕ) d) % ((![0, 0] : Fin 2 → ℕ) d + 1) = 0
      ∧ (((ix2 p q) (d.cast h.1)).val - (![0, 0] : Fin 2 → ℕ) d) / ((![0, 0] : Fin 2 → ℕ) d + 1) < (⟨2, ![a, b]⟩ : Shape).size d := by
    intro d
    match d with
    | ⟨0, _⟩ =>
      refine ⟨Nat.zero_le _, ?_, ?_⟩
      · show (p.val - 0) % (0 + 1) = 0
        omega
      · show (p.val - 0) / (0 + 1) < a
        rw [Nat.sub_zero, Nat.zero_add, Nat.div_one]; exact hp
    | ⟨1, _⟩ =>
      refine ⟨Nat.zero_le _, ?_, ?_⟩
      · show (q.val - 0) % (0 + 1) = 0
        omega
      · show (q.val - 0) / (0 + 1) < b
        rw [Nat.sub_zero, Nat.zero_add, Nat.div_one]; exact q.isLt
  rw [dif_pos hin]
  refine congrArg x (funext fun d => Fin.ext ?_)
  match d with
  | ⟨0, _⟩ =>
    show (p.val - 0) / (0 + 1) = p.val
    rw [Nat.sub_zero, Nat.zero_add, Nat.div_one]
  | ⟨1, _⟩ =>
    show (q.val - 0) / (0 + 1) = q.val
    rw [Nat.sub_zero, Nat.zero_add, Nat.div_one]

end Cert.LibPadBelow

end
-- ==== Proof.EntryArrays.lean ====
/-
  What the kernel's region finds in the three arrays the host prepares from the arguments. The weights narrowed to bf16
  are the weights (narrowing is the identity on exact values). The bias re-laid as one row reads, at (0, j), the bias
  at j. The mask padded with 48 rows of zeros below, transposed and narrowed reads, at (j, q) with q below 2000, the
  mask at (q, j): a padded array read inside the operand's extent is the operand.
-/
import proofs.«154076_j15023795601760_2_alg».proof.Proof.Gen.KernelIdeal.Frame
import proofs.«154076_j15023795601760_2_alg».proof.Proof.LibPadBelow
import Idealize.ShloMosaic.Lib.ValueIdx
import Idealize.ShloMosaic.Lib.ValueLayout
import Idealize.ShloMosaic.Lib.Pipeline.Value
import Idealize.ShloMosaic.Lib.StableHlo.Run

noncomputable section

namespace Cert.RootNorm.Entry

open Idealize.ShloMosaic Idealize.ShloMosaic.TcCoe Idealize.ShloMosaic.ValueIdx Idealize.SL.Sem Idealize.ShloMosaic.StableHlo
open Cert.KernelIdeal Cert.KernelIdeal.Gen Cert.LibPadBelow

variable (m : (ℓ : Loc nD τ sig) → Buf (Elt Ideal) ℓ)

/-- The narrowed weights are the weights. -/
theorem weights_apply (c : Dev nD) (z : S1024x1500.Idx) :
    (V m c main_v0 : S1024x1500.Idx → EReal) z = (m ((c : Thread nD τ).loc main_arg1) : S1024x1500.Idx → EReal) z := by
  have e : (V m c main_v0 : S1024x1500.Idx → EReal) = (m ((c : Thread nD τ).loc main_arg1) : S1024x1500.Idx → EReal) := by
    dsimp only [V, V0]
    simp only [hostOps0, hostOps0_1, hostOps0_2, List.flatten_cons, List.flatten_nil, List.append_nil, List.cons_append,
      List.nil_append]
    after_results
    rfl
  exact congrFun e z

/-- The bias as one row reads the bias. -/
theorem bias_apply (c : Dev nD) (j : Fin 1500) :
    (V m c main_v1 : S1x1500.Idx → EReal) (ix2 (0 : Fin 1) j) = (m ((c : Thread nD τ).loc main_arg2) : S1500.Idx → EReal) (ix1 j) := by
  have e : (V m c main_v1 : S1x1500.Idx → EReal)
      = shapeCast S1x1500 (m ((c : Thread nD τ).loc main_arg2) : S1500.Idx → EReal) shapeCasts_S1500_S1x1500 := by
    dsimp only [V, V0]
    simp only [hostOps0, hostOps0_1, hostOps0_2, List.flatten_cons, List.flatten_nil, List.append_nil, List.cons_append,
      List.nil_append]
    after_results
    rfl
  rw [e, shapeCast_a_1a_apply]

/-- The padded, transposed, narrowed mask reads, below column 2000, the mask transposed. -/
theorem mask_apply (c : Dev nD) (j : Fin 1500) (q : Fin 2048) (hq : q.val < 2000) :
    (V m c main_v4 : S1500x2048.Idx → EReal) (ix2 j q)
      = (m ((c : Thread nD τ).loc main_arg3) : S2000x1500.Idx → EReal) (ix2 ⟨q.val, hq⟩ j) := by
  have e : (V m c main_v4 : S1500x2048.Idx → EReal)
      = transpose S1500x2048 [1, 0] (pad S2048x1500 ![0, 0] ![48, 0] ![0, 0]
          (m ((c : Thread nD τ).loc main_arg3) : S2000x1500.Idx → EReal)
          (sitofp (F := Ideal) .f32 (constantI S_ 32 0#32)) pads_S2000x1500_S2048x1500_0480_000 h_S_)
          transposes_S2048x1500_S1500x2048_1_0 := by
    dsimp only [V, V0]
    simp only [hostOps0, hostOps0_1, hostOps0_2, List.flatten_cons, List.flatten_nil, List.append_nil, List.cons_append,
      List.nil_append]
    after_results
    rfl
  rw [e, transpose_ix2_apply, pad_below_apply _ _ _ _ _ q j hq]

end Cert.RootNorm.Entry

end
-- ==== Proof.KernelRun.lean ====
/-
  The kernel program's result: the host slices the region's output array to its first 2000 columns. Entry (r, c) of the
  slice is entry (r, c) of the array, the clamped root against column c of the prepared mask; below column 2000 that
  column is the mask's row c, the prepared weights are the weights and the prepared bias row is the bias, so the result
  is the result array of the four arguments. The run is the generated frame run with the result read through the slice.
-/
import proofs.«154076_j15023795601760_2_alg».proof.Proof.PaddedArray
import proofs.«154076_j15023795601760_2_alg».proof.Proof.EntryArrays
import Idealize.ShloMosaic.Lib.StableHlo.Run

noncomputable section

namespace Cert.RootNorm.Kernel

open Idealize.ShloMosaic Idealize.ShloMosaic.TcCoe Idealize.ShloMosaic.ValueIdx Idealize.SL.Sem Idealize.ShloMosaic.StableHlo
open Cert.RootNorm Cert.RootNorm.Padded Cert.RootNorm.Entry
open Cert.KernelIdeal Cert.KernelIdeal.Gen

variable (m : (ℓ : Loc nD τ sig) → Buf (Elt Ideal) ℓ) (ρ : Dev nD → PrngReg)

/-- What the line after the region leaves in the result buffer. -/
theorem result_eq (c : Dev nD) :
    Pipeline.afterTail₀ cfgs (dats m) 0 (V0 m) [hostOps1] c main_v6
      = rootArr (m ((c : Thread nD τ).loc main_arg0) : S16384x1024.Idx → EReal)
          (m ((c : Thread nD τ).loc main_arg1) : S1024x1500.Idx → EReal)
          (m ((c : Thread nD τ).loc main_arg2) : S1500.Idx → EReal)
          (m ((c : Thread nD τ).loc main_arg3) : S2000x1500.Idx → EReal) := by
  unfold Pipeline.afterTail₀
  show StableHlo.after hostOps1 _ (Proc.devRef .tc main_v6) = _
  after_results
  have hA : Pipeline.withArrays (cfgs 0).spec c (V0 m c) (fun w => (dats m 0 c).arrAt w (cfgs 0).N) (Proc.devRef .tc main_v5)
      = padded m c :=
    (Pipeline.withArrays_arr spec0 launch0.win.arr_inj c _ _ 4).trans (final m c)
  rw [hA]
  funext i
  obtain ⟨p, q, rfl⟩ : ∃ (p : Fin 16384) (q : Fin 2000), i = ix2 p q := ⟨i 0, i 1, eq_ix2 i⟩
  have hq : q.val < 2048 := by have := q.isLt; omega
  rw [extractStridedSlice_apply ![0, 0] (padded m c) slices_S16384x2048_S16384x2000_0_0 (ix2 p q) (ix2 p (⟨q.val, hq⟩ : Fin 2048))
    (fun a => by
      match a with
      | ⟨0, _⟩ => show p.val = 0 + p.val; omega
      | ⟨1, _⟩ => show q.val = 0 + q.val; omega)]
  unfold padded rootArr
  have h0 : (fun (p : Fin 16384) (k : Fin 1024) => (V m c main_arg0 : S16384x1024.Idx → EReal) (ix2 p k))
      = fun p k => (m ((c : Thread nD τ).loc main_arg0) : S16384x1024.Idx → EReal) (ix2 p k) := by
    rw [V_main_arg0]
  have h1 : (fun (k : Fin 1024) (j : Fin 1500) => (V m c main_v0 : S1024x1500.Idx → EReal) (ix2 k j))
      = fun k j => (m ((c : Thread nD τ).loc main_arg1) : S1024x1500.Idx → EReal) (ix2 k j) :=
    funext fun k => funext fun j => weights_apply m c (ix2 k j)
  have h2 : (fun (j : Fin 1500) => (V m c main_v1 : S1x1500.Idx → EReal) (ix2 (0 : Fin 1) j))
      = fun j => (m ((c : Thread nD τ).loc main_arg2) : S1500.Idx → EReal) (ix1 j) :=
    funext fun j => bias_apply m c j
  rw [h0, h1, h2]
  exact root_col _ _ _ _ _ p (⟨q.val, hq⟩ : Fin 2048) q fun j => mask_apply m c j ⟨q.val, hq⟩ q.isLt

/-- The kernel program runs, ends with the result array of its four arguments in its result buffer, and leaves the
    arguments unchanged. -/
theorem run : θ_run defs (onTc (τ := τ) (main (F := Ideal))) ⟨m, fun _ => 0, ρ⟩ fun r => ∀ c : Dev nD,
      r.2.mem ((c.tc : Thread nD τ).loc main_v6)
        = rootArr (m ((c : Thread nD τ).loc main_arg0) : S16384x1024.Idx → EReal)
            (m ((c : Thread nD τ).loc main_arg1) : S1024x1500.Idx → EReal)
            (m ((c : Thread nD τ).loc main_arg2) : S1500.Idx → EReal)
            (m ((c : Thread nD τ).loc main_arg3) : S2000x1500.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v6 (Pipeline.mem_restRefs_of main_v6 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.RootNorm.Kernel

end
-- ==== Proof.RefRoot.lean ====
/-
  The reference computes the clamped root of masked squared activations: its contraction plus the twice-broadcast bias
  is the affine map, one over one plus the exponential of the negation is the logistic function, the power with exponent 2
  of a logistic value is its square, the contraction with the transposed mask sums over the units j the squared
  activation times the mask at (c, j), and the power with exponent 1/2 of the clamp is its square root.
-/
import proofs.«154076_j15023795601760_2_alg».proof.Proof.RootNorm
import proofs.«154076_j15023795601760_2_alg».proof.Proof.Gen.ReferenceIdeal.Run

noncomputable section

namespace Cert.RootNorm.Ref

open Idealize.ShloMosaic Idealize.ShloMosaic.ValueIdx Cert.LibPlainDot Cert.LibMatProd Cert.LibPowRoot Cert.RootNorm
open Cert.ReferenceIdeal Cert.ReferenceIdeal.Gen

/-- The reference's composed term of its four arguments is the result array. -/
theorem term_eq (X : FVec Ideal S16384x1024 .f32) (W : FVec Ideal S1024x1500 .f32) (B : FVec Ideal S1500 .f32)
    (T : FVec Ideal S2000x1500 .f32) :
    Host.powf (F := Ideal) (minimumf (broadcastInDim S16384x2000 ![] bcast_S_S16384x2000 (id (constant (F := Ideal) S_ .f32 0x3F7FFFEF#32))) (maximumf (broadcastInDim S16384x2000 ![] bcast_S_S16384x2000 (id (constant (F := Ideal) S_ .f32 0x358637BD#32))) (Host.dotGeneral (F := Ideal) dot_S16384x1500_S1500x2000_S16384x2000_1_0_0_1_n_n none (Host.powf (F := Ideal) (Host.divf (F := Ideal) (broadcastInDim S16384x1500 ![] bcast_S_S16384x1500 (constant (F := Ideal) S_ .f32 0x3F800000#32)) (addf (broadcastInDim S16384x1500 ![] bcast_S_S16384x1500 (constant (F := Ideal) S_ .f32 0x3F800000#32)) (Host.exp (F := Ideal) (Host.negf (F := Ideal) (addf (Host.dotGeneral (F := Ideal) dot_S16384x1024_S1024x1500_S16384x1500_1_0_0_1_n_n none X W) (broadcastInDim S16384x1500 ![0, 1] bcast_S1x1500_S16384x1500_0_1 (broadcastInDim S1x1500 ![1] bcast_S1500_S1x1500_1 B))))))) (broadcastInDim S16384x1500 ![] bcast_S_S16384x1500 (constant (F := Ideal) S_ .f32 0x40000000#32))) (transpose S1500x2000 [1, 0] T transposes_S2000x1500_S1500x2000_1_0)))) (broadcastInDim S16384x2000 ![] bcast_S_S16384x2000 (constant (F := Ideal) S_ .f32 0x3F000000#32))
      = rootArr X W B T := by
  rw [dot_bias_eq dot_S16384x1024_S1024x1500_S16384x1500_1_0_0_1_n_n rfl rfl rfl rfl rfl rfl, host_sigmoid_eq,
    host_dot_eq dot_S16384x1500_S1500x2000_S16384x2000_1_0_0_1_n_n rfl rfl rfl rfl rfl rfl]
  funext i
  obtain ⟨p, c, rfl⟩ : ∃ (p : Fin 16384) (c : Fin 2000), i = ix2 p c := ⟨i 0, i 1, eq_ix2 i⟩
  show Ideal.pow (min hi (max lo (matProd (fun j => Ideal.pow (Ideal.logistic (affine X W B j)) (Ideal.ofBits .f32 0x40000000#32))
      (transpose S1500x2000 [1, 0] T transposes_S2000x1500_S1500x2000_1_0) (ix2 p c)))) (Ideal.ofBits .f32 0x3F000000#32) = root _ _ _ _ p c
  rw [pow_half_bounds, matProd_apply]
  unfold root act
  refine congrArg Ideal.sqrt (congrArg (min hi) (congrArg (max lo) (Finset.sum_congr rfl fun j _ => ?_)))
  rw [transpose_ix2_apply]
  show Ideal.pow (Ideal.logistic (affine X W B (ix2 p j))) (Ideal.ofBits .f32 0x40000000#32) * T (ix2 c j) = _
  rw [pow_two_logistic, affine_apply]

end Cert.RootNorm.Ref

end
-- ==== Proof.lean ====
/- The kernel and its reference compute one function of the four arguments — inputs X [16384, 1024], weights W [1024, 1500],
   bias b [1500] and mask T [2000, 1500] —: with a (r, j) the logistic function of (the sum over k of X (r, k) · W (k, j)) + b j,
   the result at (r, c) is the square root of the sum over j of a (r, j)² · T (c, j), clamped to [lo, hi] for two float
   constants 0 < lo < hi < 1.

   The kernel reaches it in 32 blocks of 512 rows: two matrix products into zero accumulators on operands narrowed to bf16
   (the identity on exact values), the square as a product, the mask prepared on the host as T padded with 48 zero rows and
   transposed, and a final slice that drops the 48 padded columns again. The reference contracts over whole arrays, spells
   the logistic function as one over one plus the exponential of the negation, the square as a power with exponent 2 and
   the root as a power with exponent 1/2. The two agree on every extended real, with no use of the inputs' finiteness: a
   logistic value is always a real in [0, 1], so its power with exponent 2 is its square; and a clamp to [lo, hi] is always a
   positive real, so its power with exponent 1/2 is its square root. The sums are the same sums, term by term.

   The three frames are the generated ones (the reference's is its run with the result dropped); the idealization changed
   nothing, so there is nothing to preserve. -/
import proofs.«154076_j15023795601760_2_alg».proof.Defs
import proofs.«154076_j15023795601760_2_alg».proof.Proof.Gen.Kernel
import proofs.«154076_j15023795601760_2_alg».proof.Proof.Gen.Kernel.Skeleton
import proofs.«154076_j15023795601760_2_alg».proof.Proof.Gen.Kernel.Launch
import proofs.«154076_j15023795601760_2_alg».proof.Proof.Gen.Kernel.Points
import proofs.«154076_j15023795601760_2_alg».proof.Proof.Gen.Kernel.Frame
import proofs.«154076_j15023795601760_2_alg».proof.Proof.Gen.KernelIdeal
import proofs.«154076_j15023795601760_2_alg».proof.Proof.Gen.KernelIdeal.Skeleton
import proofs.«154076_j15023795601760_2_alg».proof.Proof.Gen.KernelIdeal.Launch
import proofs.«154076_j15023795601760_2_alg».proof.Proof.Gen.KernelIdeal.Points
import proofs.«154076_j15023795601760_2_alg».proof.Proof.Gen.KernelIdeal.Frame
import proofs.«154076_j15023795601760_2_alg».proof.Proof.Gen.ReferenceIdeal
import proofs.«154076_j15023795601760_2_alg».proof.Proof.Gen.Pre_finite_inputs
import proofs.«154076_j15023795601760_2_alg».proof.Proof.Gen.ReferenceIdeal.Run
import proofs.«154076_j15023795601760_2_alg».proof.Proof.KernelRun
import proofs.«154076_j15023795601760_2_alg».proof.Proof.RefRoot
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the result array of their arguments, and the arguments agree. -/
theorem algebraic : Cert.algebraic_KernelIdeal_ReferenceIdeal := by
  intro m ρ m' ρ' _ hagree
  refine ⟨_, Cert.RootNorm.Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact Cert.RootNorm.Ref.term_eq _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
